-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64 : Shape := ⟨3, ![8, 512, 64]⟩
abbrev S_ : Shape := ⟨0, ![]⟩

class Facts : Prop where
  bcast_S_S8x512x64 : S_.BroadcastsInDim S8x512x64 (![] : Fin 0 → Fin S8x512x64.rank)
  reducesTo_S8x512x64_S_d0_1_2 : S8x512x64.ReducesTo [0, 1, 2] S_
  h_S_ : 0 < S_.numel

variable [Facts]

def fn {F : FTy → Type} [FloatOps F] (main_arg0 : FVec F S8x512x64 .f32) (main_arg1 : FVec F S8x512x64 .f32) (main_arg2 : FVec F S8x512x64 .f32) : IVec S_ 1 :=
  let main_v0 : FVec F S8x512x64 .f32 := Host.absf main_arg0
  let main_cst : FVec F S_ .f32 := constant S_ .f32 0x7F800000#32
  let main_v1 : FVec F S8x512x64 .f32 := broadcastInDim S8x512x64 ![] bcast_S_S8x512x64 main_cst
  let main_v2 : IVec S8x512x64 1 := cmpf .olt main_v0 main_v1
  let main_c : IVec S_ 1 := constantI S_ 1 1#1
  let main_v3 : IVec S_ 1 := (fun x v => Host.reduce IntOp.andi x v reducesTo_S8x512x64_S_d0_1_2 h_S_) main_v2 main_c
  let main_v4 : FVec F S8x512x64 .f32 := Host.absf main_arg1
  let main_cst_0 : FVec F S_ .f32 := constant S_ .f32 0x7F800000#32
  let main_v5 : FVec F S8x512x64 .f32 := broadcastInDim S8x512x64 ![] bcast_S_S8x512x64 main_cst_0
  let main_v6 : IVec S8x512x64 1 := cmpf .olt main_v4 main_v5
  let main_c_1 : IVec S_ 1 := constantI S_ 1 1#1
  let main_v7 : IVec S_ 1 := (fun x v => Host.reduce IntOp.andi x v reducesTo_S8x512x64_S_d0_1_2 h_S_) main_v6 main_c_1
  let main_v8 : IVec S_ 1 := andi main_v3 main_v7
  let main_v9 : FVec F S8x512x64 .f32 := Host.absf main_arg2
  let main_cst_2 : FVec F S_ .f32 := constant S_ .f32 0x7F800000#32
  let main_v10 : FVec F S8x512x64 .f32 := broadcastInDim S8x512x64 ![] bcast_S_S8x512x64 main_cst_2
  let main_v11 : IVec S8x512x64 1 := cmpf .olt main_v9 main_v10
  let main_c_3 : IVec S_ 1 := constantI S_ 1 1#1
  let main_v12 : IVec S_ 1 := (fun x v => Host.reduce IntOp.andi x v reducesTo_S8x512x64_S_d0_1_2 h_S_) main_v11 main_c_3
  let main_v13 : IVec S_ 1 := andi main_v8 main_v12
  main_v13
-- ==== Kernel.lean ====
abbrev S8x512x64 : Shape := ⟨3, ![8, 512, 64]⟩
abbrev S8x64x512 : Shape := ⟨3, ![8, 64, 512]⟩
abbrev S1x64x256 : Shape := ⟨3, ![1, 64, 256]⟩
abbrev S1x64x512 : Shape := ⟨3, ![1, 64, 512]⟩
abbrev S1x512x64 : Shape := ⟨3, ![1, 512, 64]⟩
abbrev S1x256x64 : Shape := ⟨3, ![1, 256, 64]⟩
abbrev S256x512 : Shape := ⟨2, ![256, 512]⟩
abbrev S1x8x256 : Shape := ⟨3, ![1, 8, 256]⟩
abbrev S8x256 : Shape := ⟨2, ![8, 256]⟩
abbrev S1x8x512 : Shape := ⟨3, ![1, 8, 512]⟩
abbrev S8x512 : Shape := ⟨2, ![8, 512]⟩
abbrev S8x256x1 : Shape := ⟨3, ![8, 256, 1]⟩
abbrev S8x1x512 : Shape := ⟨3, ![8, 1, 512]⟩
abbrev S8x256x512 : Shape := ⟨3, ![8, 256, 512]⟩
abbrev S256 : Shape := ⟨1, ![256]⟩
abbrev S256x1 : Shape := ⟨2, ![256, 1]⟩
abbrev S512x64 : Shape := ⟨2, ![512, 64]⟩
abbrev S256x64 : Shape := ⟨2, ![256, 64]⟩

abbrev nBuf : Space → Nat
  | .hbm => 6
  | .vmem => 8
  | .smem => 0
  | _ => 0

abbrev bufTy : (tb : Table) → Fin (tcTables nBuf tb) → BufTy
  | .hbm, ⟨0, _⟩ => ⟨S8x512x64, .f32⟩
  | .hbm, ⟨1, _⟩ => ⟨S8x512x64, .f32⟩
  | .hbm, ⟨2, _⟩ => ⟨S8x512x64, .f32⟩
  | .hbm, ⟨3, _⟩ => ⟨S8x64x512, .f32⟩
  | .hbm, ⟨4, _⟩ => ⟨S8x64x512, .f32⟩
  | .hbm, ⟨5, _⟩ => ⟨S8x512x64, .f32⟩
  | .local _ .vmem, ⟨0, _⟩ => ⟨S1x64x256, .f32⟩
  | .local _ .vmem, ⟨1, _⟩ => ⟨S1x64x256, .f32⟩
  | .local _ .vmem, ⟨2, _⟩ => ⟨S1x64x512, .f32⟩
  | .local _ .vmem, ⟨3, _⟩ => ⟨S1x64x512, .f32⟩
  | .local _ .vmem, ⟨4, _⟩ => ⟨S1x512x64, .f32⟩
  | .local _ .vmem, ⟨5, _⟩ => ⟨S1x512x64, .f32⟩
  | .local _ .vmem, ⟨6, _⟩ => ⟨S1x256x64, .f32⟩
  | .local _ .vmem, ⟨7, _⟩ => ⟨S1x256x64, .f32⟩
  | _, _ => ⟨S8x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_mult1 : BitVec 32 :=
  let c0_i32 : BitVec 32 := 0#32
  let c8_i32 : BitVec 32 := 8#32
  let v1 : BitVec 32 := Scalar.muli c0_i32 c8_i32
  v1
def k0_off1 (c0_i32 : BitVec 32) : Fin 3 → Nat :=
  let c0 : Index := 0#32
  let c8_i32 : BitVec 32 := 8#32
  let v1 : BitVec 32 := Scalar.muli c0_i32 c8_i32
  let v2 : BitVec 32 := v1
  let v3 : Index := Scalar.indexCast v2
  let c0_0 : Index := 0#32
  ![0, v3.toNat, 0]
def k0_off2 (c0_i32 : BitVec 32) : Fin 3 → Nat :=
  let c0_1 : Index := 0#32
  let c8_i32 : BitVec 32 := 8#32
  let v1 : BitVec 32 := Scalar.muli c0_i32 c8_i32
  let v2 : BitVec 32 := v1
  let v6 : Index := Scalar.indexCast v2
  let c0_2 : Index := 0#32
  ![0, v6.toNat, 0]
def k0_mult2 : BitVec 32 :=
  let c1_i32 : BitVec 32 := 1#32
  let c8_i32_4 : BitVec 32 := 8#32
  let v17 : BitVec 32 := Scalar.muli c1_i32 c8_i32_4
  v17
def k0_mult3 : BitVec 32 :=
  let c2_i32 : BitVec 32 := 2#32
  let c8_i32_10 : BitVec 32 := 8#32
  let v33 : BitVec 32 := Scalar.muli c2_i32 c8_i32_10
  v33
def k0_mult4 : BitVec 32 :=
  let c3_i32 : BitVec 32 := 3#32
  let c8_i32_16 : BitVec 32 := 8#32
  let v49 : BitVec 32 := Scalar.muli c3_i32 c8_i32_16
  v49
def k0_mult5 : BitVec 32 :=
  let c4_i32 : BitVec 32 := 4#32
  let c8_i32_22 : BitVec 32 := 8#32
  let v65 : BitVec 32 := Scalar.muli c4_i32 c8_i32_22
  v65
def k0_mult6 : BitVec 32 :=
  let c5_i32 : BitVec 32 := 5#32
  let c8_i32_28 : BitVec 32 := 8#32
  let v81 : BitVec 32 := Scalar.muli c5_i32 c8_i32_28
  v81
def k0_mult7 : BitVec 32 :=
  let c6_i32 : BitVec 32 := 6#32
  let c8_i32_34 : BitVec 32 := 8#32
  let v97 : BitVec 32 := Scalar.muli c6_i32 c8_i32_34
  v97
def k0_mult8 : BitVec 32 :=
  let c7_i32 : BitVec 32 := 7#32
  let c8_i32_40 : BitVec 32 := 8#32
  let v113 : BitVec 32 := Scalar.muli c7_i32 c8_i32_40
  v113
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8x512x64_S8x64x512_0_2_1 : S8x512x64.Transposes [0, 2, 1] S8x64x512
  h_S1x8x256 : 0 < S1x8x256.numel
  shapeCasts_S1x8x256_S8x256 : S1x8x256.ShapeCasts S8x256
  h_S1x8x512 : 0 < S1x8x512.numel
  shapeCasts_S1x8x512_S8x512 : S1x8x512.ShapeCasts S8x512
  shapeCasts_S8x256_S8x256x1 : S8x256.ShapeCasts S8x256x1
  shapeCasts_S8x512_S8x1x512 : S8x512.ShapeCasts S8x1x512
  broadcasts_S8x256x1_S8x256x512 : S8x256x1.Broadcasts S8x256x512
  broadcasts_S8x1x512_S8x256x512 : S8x1x512.Broadcasts S8x256x512
  reduces_S8x256x512_S256x512 : S8x256x512.Reduces [0] S256x512
  reduces_S256x512_S256 : S256x512.Reduces [1] S256
  shapeCasts_S256_S256x1 : S256.ShapeCasts S256x1
  broadcasts_S256x1_S256x512 : S256x1.Broadcasts S256x512
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S256x512_S512x64_S256x64_1_0_0_1_n_n_wf : DotDims.WF S256x512 S512x64 S256x64 [1] [0] [0] [1] [] []
  hrank0 : 0 < grid0.rank
  k0_mult1_dvd : 8 ∣ k0_mult1.toNat
  k0_off1_inb : ∀ (r : Fin 8), ∀ a, (k0_off1 (BitVec.ofNat 32 r.val)) a + S1x8x256.size a ≤ S1x64x256.size a
  k0_off2_inb : ∀ (r : Fin 8), ∀ a, (k0_off2 (BitVec.ofNat 32 r.val)) a + S1x8x512.size a ≤ S1x64x512.size a
  k0_mult2_dvd : 8 ∣ k0_mult2.toNat
  k0_mult3_dvd : 8 ∣ k0_mult3.toNat
  k0_mult4_dvd : 8 ∣ k0_mult4.toNat
  k0_mult5_dvd : 8 ∣ k0_mult5.toNat
  k0_mult6_dvd : 8 ∣ k0_mult6.toNat
  k0_mult7_dvd : 8 ∣ k0_mult7.toNat
  k0_mult8_dvd : 8 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S8x64x512.size a
  hwx0_0 : ∀ i : grid0.Coords, EltTy.bits .f32 = 32 ∨ (Rect.block (s := S8x64x512) S1x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S8x512x64.size a
  hwx0_2 : ∀ i : grid0.Coords, EltTy.bits .f32 = 32 ∨ (Rect.block (s := S8x512x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S8x512x64.size a
  hwx0_3 : ∀ i : grid0.Coords, EltTy.bits .f32 = 32 ∨ (Rect.block (s := S8x512x64) S1x256x64.size (cc0_transform_3 i) (hinb0_3 i)).WholeWords (EltTy.packing .f32)

variable [Facts₀]

def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf

abbrev win0_0 : Pipeline.Window sig grid0 :=
  Pipeline.Window.ofSpec (Memref.whole main_v0) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x512x64 : Shape := ⟨3, ![8, 512, 64]⟩
abbrev S8x1x512x64 : Shape := ⟨4, ![8, 1, 512, 64]⟩
abbrev S8x512x1x64 : Shape := ⟨4, ![8, 512, 1, 64]⟩
abbrev S8x512x512x64 : Shape := ⟨4, ![8, 512, 512, 64]⟩
abbrev S_ : Shape := ⟨0, ![]⟩
abbrev S8x512x512 : Shape := ⟨3, ![8, 512, 512]⟩
abbrev S8x512 : Shape := ⟨2, ![8, 512]⟩
abbrev S8x512x1 : Shape := ⟨3, ![8, 512, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x512x64, .f32⟩
  | .hbm, ⟨1, _⟩ => ⟨S8x512x64, .f32⟩
  | .hbm, ⟨2, _⟩ => ⟨S8x512x64, .f32⟩
  | .hbm, ⟨3, _⟩ => ⟨S8x1x512x64, .f32⟩
  | .hbm, ⟨4, _⟩ => ⟨S8x512x1x64, .f32⟩
  | .hbm, ⟨5, _⟩ => ⟨S8x512x512x64, .f32⟩
  | .hbm, ⟨6, _⟩ => ⟨S8x512x512x64, .f32⟩
  | .hbm, ⟨7, _⟩ => ⟨S8x512x512x64, .f32⟩
  | .hbm, ⟨8, _⟩ => ⟨S_, .f32⟩
  | .hbm, ⟨9, _⟩ => ⟨S8x512x512x64, .f32⟩
  | .hbm, ⟨10, _⟩ => ⟨S8x512x512x64, .f32⟩
  | .hbm, ⟨11, _⟩ => ⟨S8x512x512x64, .f32⟩
  | .hbm, ⟨12, _⟩ => ⟨S_, .f32⟩
  | .hbm, ⟨13, _⟩ => ⟨S8x512x512, .f32⟩
  | .hbm, ⟨14, _⟩ => ⟨S_, .f32⟩
  | .hbm, ⟨15, _⟩ => ⟨S8x512, .f32⟩
  | .hbm, ⟨16, _⟩ => ⟨S_, .f32⟩
  | .hbm, ⟨17, _⟩ => ⟨S8x512, .f32⟩
  | .hbm, ⟨18, _⟩ => ⟨S8x512, .f32⟩
  | .hbm, ⟨19, _⟩ => ⟨S8x512x1, .f32⟩
  | .hbm, ⟨20, _⟩ => ⟨S8x512x512, .f32⟩
  | .hbm, ⟨21, _⟩ => ⟨S8x512x512, .f32⟩
  | .hbm, ⟨22, _⟩ => ⟨S8x512x512, .f32⟩
  | .hbm, ⟨23, _⟩ => ⟨S_, .f32⟩
  | .hbm, ⟨24, _⟩ => ⟨S8x512, .f32⟩
  | .hbm, ⟨25, _⟩ => ⟨S8x512x1, .f32⟩
  | .hbm, ⟨26, _⟩ => ⟨S8x512x512, .f32⟩
  | .hbm, ⟨27, _⟩ => ⟨S8x512x512, .f32⟩
  | .hbm, ⟨28, _⟩ => ⟨S8x512x64, .f32⟩
  | _, _ => ⟨S8x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S8x512x64_S8x1x512x64_0_2_3 : S8x512x64.BroadcastsInDim S8x1x512x64 (![0, 2, 3] : Fin 3 → Fin S8x1x512x64.rank)
  bcast_S8x512x64_S8x512x1x64_0_1_3 : S8x512x64.BroadcastsInDim S8x512x1x64 (![0, 1, 3] : Fin 3 → Fin S8x512x1x64.rank)
  bcast_S8x1x512x64_S8x512x512x64_0_1_2_3 : S8x1x512x64.BroadcastsInDim S8x512x512x64 (![0, 1, 2, 3] : Fin 4 → Fin S8x512x512x64.rank)
  bcast_S8x512x1x64_S8x512x512x64_0_1_2_3 : S8x512x1x64.BroadcastsInDim S8x512x512x64 (![0, 1, 2, 3] : Fin 4 → Fin S8x512x512x64.rank)
  bcast_S_S8x512x512x64 : S_.BroadcastsInDim S8x512x512x64 (![] : Fin 0 → Fin S8x512x512x64.rank)
  reducesTo_S8x512x512x64_S8x512x512_d3 : S8x512x512x64.ReducesTo [3] S8x512x512
  h_S_ : 0 < S_.numel
  reducesTo_S8x512x512_S8x512_d2 : S8x512x512.ReducesTo [2] S8x512
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x512_0_1_2 : S8x512x1.BroadcastsInDim S8x512x512 (![0, 1, 2] : Fin 3 → Fin S8x512x512.rank)
  dot_S8x512x512_S8x512x64_S8x512x64_2_1_1_2_0_0_wf : DotDims.WF S8x512x512 S8x512x64 S8x512x64 [2] [1] [1] [2] [0] [0]

variable [Facts₀]

def dot_S8x512x512_S8x512x64_S8x512x64_2_1_1_2_0_0 : DotDims S8x512x512 S8x512x64 S8x512x64 where
  lhsContracting := [2]
  rhsContracting := [1]
  lhsNonContracting := [1]
  rhsNonContracting := [2]
  lhsBatch := [0]
  rhsBatch := [0]
  wf := dot_S8x512x512_S8x512x64_S8x512x64_2_1_1_2_0_0_wf

class Facts : Prop extends Facts₀ where

variable [Facts]
-- ==== Proof.Spec.lean ====
/-
  The specification: what both programs compute, index by index, over the extended reals.

  For a batch b, a query row i and a feature column d the result is a softmax-weighted sum of the rows of v,
      out (b, i, d) = ∑ j, w (i, j) · v (b, j, d),     w (i, j) = exp (u (i, j) − max_j u (i, j)) / ∑ j', exp (u (i, j') − max),
  where the score u (i, j) is half the L1 distance between row i of v and row j of k, over the 64 features. The two
  programs differ only in how they arrange that score: one sums the 64 absolute differences eight at a time and halves
  the total (scoreK); the other halves each difference (taken the other way round) before the absolute value and
  sums once (scoreR). On real numbers the two agree: |(y − x) / 2| = |x − y| / 2, and a product with a constant
  distributes over a finite sum of reals.
-/
import Idealize.ShloMosaic.PureOps.Ideal.Laws
import Idealize.ShloMosaic.Lib.ValueIdx

noncomputable section

namespace Cert.Attn

open Idealize.ShloMosaic

/-! ## The softmax-weighted sum of one row of scores -/

/-- The largest score of a row, folded from −∞. -/
def rowMax {n : ℕ} (u : Fin n → EReal) : EReal :=
  (Finset.univ : Finset (Fin n)).fold max (Ideal.ofBits .f32 0xFF800000#32) u

/-- A score's exponential after the row's maximum is taken off. -/
def expShift {n : ℕ} (u : Fin n → EReal) (j : Fin n) : EReal := Ideal.exp (u j - rowMax u)

/-- The softmax weight of entry j: its shifted exponential over the row's total. -/
def weight {n : ℕ} (u : Fin n → EReal) (j : Fin n) : EReal := Ideal.div (expShift u j) (∑ j' : Fin n, expShift u j')

/-- The weighted sum of the values w by the softmax of the scores u. -/
def attend {n : ℕ} (u w : Fin n → EReal) : EReal := ∑ j : Fin n, weight u j * w j

/-! ## The two arrangements of the score -/

/-- Feature s of chunk r: row 8r + s of the 64. -/
def row (r s : Fin 8) : Fin 64 := ⟨8 * r.val + s.val, by have := r.isLt; have := s.isLt; omega⟩

/-- |a − b| as both programs take an absolute value: the larger of x and −x. -/
def absDiff (a b : EReal) : EReal := max (a - b) (-(a - b))

/-- The L1 distance over the eight features of chunk r. -/
def chunk (a b : Fin 64 → EReal) (r : Fin 8) : EReal := ∑ s : Fin 8, absDiff (a (row r s)) (b (row r s))

/-- The eight chunks added one after the other onto zero, then halved. -/
def scoreK (a b : Fin 64 → EReal) : EReal :=
  ((((((((Ideal.ofBits .f32 0x00000000#32 + chunk a b 0) + chunk a b 1) + chunk a b 2) + chunk a b 3) + chunk a b 4)
    + chunk a b 5) + chunk a b 6) + chunk a b 7) * Ideal.ofBits .f32 0x3F000000#32

/-- Each difference b − a halved, then its absolute value, the 64 of them summed onto zero. -/
def scoreR (a b : Fin 64 → EReal) : EReal :=
  Ideal.ofBits .f32 0x00000000#32 + ∑ d : Fin 64,
    max ((b d - a d) * Ideal.ofBits .f32 0x3F000000#32) (-((b d - a d) * Ideal.ofBits .f32 0x3F000000#32))

/-! ## The result array -/

/-- The shape of k, v and the result. -/
abbrev Arr : Shape := ⟨3, ![8, 512, 64]⟩

/-- The result at batch b, row i, column d, for a given arrangement of the score. -/
def attnAt (score : (Fin 64 → EReal) → (Fin 64 → EReal) → EReal) (k v : Arr.Idx → EReal)
    (b : Fin 8) (i : Fin 512) (d : Fin 64) : EReal :=
  attend (fun j : Fin 512 => score (fun dd => v (ValueIdx.ix3 b i dd)) (fun dd => k (ValueIdx.ix3 b j dd)))
    (fun j : Fin 512 => v (ValueIdx.ix3 b j d))

/-- The whole result array. -/
def attnArr (score : (Fin 64 → EReal) → (Fin 64 → EReal) → EReal) (k v : Arr.Idx → EReal) : Arr.Idx → EReal :=
  fun idx => attnAt score k v ⟨(idx 0).val, (idx 0).isLt⟩ ⟨(idx 1).val, (idx 1).isLt⟩ ⟨(idx 2).val, (idx 2).isLt⟩

theorem attnArr_ix3 (score : (Fin 64 → EReal) → (Fin 64 → EReal) → EReal) (k v : Arr.Idx → EReal)
    (b : Fin 8) (i : Fin 512) (d : Fin 64) : attnArr score k v (ValueIdx.ix3 b i d) = attnAt score k v b i d := rfl

/-! ## On real entries the two scores agree -/

/-- The word 0x3F000000 is one half. -/
theorem half_eq : Ideal.ofBits .f32 0x3F000000#32 = ((1 / 2 : ℝ) : EReal) := by
  simp [Ideal.ofBits, Ideal.ieee, -EReal.coe_mul]; norm_num

/-- The coercion of a finite sum of reals is the sum of the coercions. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The larger of x and −x, for a real x, is |x|. -/
theorem max_neg_coe (x : ℝ) : max (x : EReal) (-(x : EReal)) = ((|x| : ℝ) : EReal) := by
  rw [← EReal.coe_neg, abs_eq_max_neg]
  exact (EReal.coe_strictMono.monotone.map_max).symm

theorem absDiff_coe (x y : ℝ) : absDiff (x : EReal) (y : EReal) = ((|x - y| : ℝ) : EReal) := by
  unfold absDiff
  rw [← EReal.coe_sub, max_neg_coe]

/-- The 64 rows are the eight chunks of eight. -/
theorem sum_rows (t : Fin 64 → ℝ) : ∑ d : Fin 64, t d = ∑ r : Fin 8, ∑ s : Fin 8, t (row r s) := by
  rw [← Fintype.sum_prod_type', ← Equiv.sum_comp (finProdFinEquiv (m := 8) (n := 8)) t]
  refine Finset.sum_congr rfl fun p _ => congrArg t (Fin.ext ?_)
  show p.2.val + 8 * p.1.val = 8 * p.1.val + p.2.val
  omega

theorem score_eq (a b : Fin 64 → EReal) (ha : ∀ d, ∃ r : ℝ, a d = r) (hb : ∀ d, ∃ r : ℝ, b d = r) :
    scoreK a b = scoreR a b := by
  choose ar har using ha
  choose br hbr using hb
  obtain rfl : a = fun d => (ar d : EReal) := funext har
  obtain rfl : b = fun d => (br d : EReal) := funext hbr
  have hc : ∀ r : Fin 8, chunk (fun d => (ar d : EReal)) (fun d => (br d : EReal)) r
      = ((∑ s : Fin 8, |ar (row r s) - br (row r s)| : ℝ) : EReal) := fun r => by
    unfold chunk
    rw [coe_sum]
    exact Finset.sum_congr rfl fun s _ => absDiff_coe _ _
  have hK : scoreK (fun d => (ar d : EReal)) (fun d => (br d : EReal))
      = (((∑ d : Fin 64, |ar d - br d|) * (1 / 2) : ℝ) : EReal) := by
    unfold scoreK
    rw [hc, hc, hc, hc, hc, hc, hc, hc, Ideal.ofBits_zero_f32, half_eq, zero_add]
    simp only [← EReal.coe_add]
    rw [← EReal.coe_mul, sum_rows (fun d => |ar d - br d|),
      Fin.sum_univ_eight (fun r : Fin 8 => ∑ s : Fin 8, |ar (row r s) - br (row r s)|)]
  have hR : scoreR (fun d => (ar d : EReal)) (fun d => (br d : EReal))
      = (((∑ d : Fin 64, |ar d - br d|) * (1 / 2) : ℝ) : EReal) := by
    unfold scoreR
    rw [Ideal.ofBits_zero_f32, half_eq, zero_add, Finset.sum_mul, coe_sum]
    refine Finset.sum_congr rfl fun d _ => ?_
    rw [← EReal.coe_sub, ← EReal.coe_mul, max_neg_coe, abs_mul, abs_sub_comm]
    norm_num
  rw [hK, hR]

/-- So on arrays of reals the two arrangements give one result array. -/
theorem attnArr_eq (k v : Arr.Idx → EReal) (hk : ∀ i, ∃ r : ℝ, k i = r) (hv : ∀ i, ∃ r : ℝ, v i = r) :
    attnArr scoreK k v = attnArr scoreR k v := by
  funext idx
  unfold attnArr attnAt
  congr 1
  funext j
  exact score_eq _ _ (fun _ => hv _) (fun _ => hk _)

end Cert.Attn

end
-- ==== Proof.Block.lean ====
/-
  What one grid point leaves in the output block, as one term of the three input blocks.

  The body reads the transposed query block x0 (64 feature rows by 256 queries) and the transposed key block x1
  (64 feature rows by 512 keys) eight feature rows at a time, and the value block x2 whole; its one store covers the
  output block. So the block after the body is the store's value: the product stage applied to the eight accumulated
  chunks. A load of eight rows from row o reads, at (u, s, p), the block at (0, o + s, p).
-/
import proofs.«114026_j6511170421658_2_alg».proof.Proof.Gen.KernelIdeal.Frame
import Idealize.ShloMosaic.Lib.Pipeline.Value
import Idealize.ShloMosaic.Lib.ValueIdx
import Idealize.ShloMosaic.Lib.Tactic
import proofs.«114026_j6511170421658_2_alg».proof.Proof.Spec

noncomputable section

open Idealize.ShloMosaic Idealize.ShloMosaic.TcCoe Idealize.SL.Sem

namespace Cert.KernelIdeal.Block

open Cert.KernelIdeal Cert.KernelIdeal.Gen Idealize.ShloMosaic.ValueIdx

variable {F : FTy → Type} [FloatOps F]

theorem zero3 : (![0, 0, 0] : Fin 3 → Nat) = fun _ => 0 := funext fun a => by fin_cases a <;> rfl

/-- The output block as a term of the input blocks: the eight chunks accumulated in order, then the weights and the
    product with the values. -/
def blockTerm (x0 : Vec F S1x64x256 .f32) (x1 : Vec F S1x64x512 .f32) (x2 : Vec F S1x512x64 .f32) : Vec F S1x256x64 .f32 :=
  k0_pay1
    (k0_pay5
      (k0_pay4
        (k0_pay2 (View.ld x0 (Rect.unit (s := S1x64x256) ![0, 0, 0] ![1, 8, 256] (by decide))) (View.ld x1 (Rect.unit (s := S1x64x512) ![0, 0, 0] ![1, 8, 512] (by decide))) (View.ld x0 (Rect.unit (s := S1x64x256) ![0, 8, 0] ![1, 8, 256] (by decide))) (View.ld x1 (Rect.unit (s := S1x64x512) ![0, 8, 0] ![1, 8, 512] (by decide))))
        (k0_pay3 (View.ld x0 (Rect.unit (s := S1x64x256) ![0, 16, 0] ![1, 8, 256] (by decide)))) (View.ld x1 (Rect.unit (s := S1x64x512) ![0, 16, 0] ![1, 8, 512] (by decide))) (View.ld x0 (Rect.unit (s := S1x64x256) ![0, 24, 0] ![1, 8, 256] (by decide))) (View.ld x1 (Rect.unit (s := S1x64x512) ![0, 24, 0] ![1, 8, 512] (by decide))) (View.ld x0 (Rect.unit (s := S1x64x256) ![0, 32, 0] ![1, 8, 256] (by decide))) (View.ld x1 (Rect.unit (s := S1x64x512) ![0, 32, 0] ![1, 8, 512] (by decide))))
      (View.ld x0 (Rect.unit (s := S1x64x256) ![0, 40, 0] ![1, 8, 256] (by decide))) (View.ld x1 (Rect.unit (s := S1x64x512) ![0, 40, 0] ![1, 8, 512] (by decide))) (View.ld x0 (Rect.unit (s := S1x64x256) ![0, 48, 0] ![1, 8, 256] (by decide))) (View.ld x1 (Rect.unit (s := S1x64x512) ![0, 48, 0] ![1, 8, 512] (by decide))))
    (k0_pay6 (View.ld x1 (Rect.unit (s := S1x64x512) ![0, 56, 0] ![1, 8, 512] (by decide)))) (k0_pay7 (View.ld x0 (Rect.unit (s := S1x64x256) ![0, 56, 0] ![1, 8, 256] (by decide)))) x2

/-- The body's one covering store leaves that term, whatever the staging buffers are. -/
theorem out_A (c : Dev nD) (i : grid0.Coords) (a2 : Memref sig .tc .vmem S1x64x256 .f32) (h2 : a2.IsWhole)
    (a3 : Memref sig .tc .vmem S1x64x512 .f32) (h3 : a3.IsWhole) (a4 : Memref sig .tc .vmem S1x512x64 .f32) (h4 : a4.IsWhole)
    (a5 : Memref sig .tc .vmem S1x256x64 .f32) (h5 : a5.IsWhole)
    (x0 : Vec F S1x64x256 .f32) (x1 : Vec F S1x64x512 .f32) (x2 : Vec F S1x512x64 .f32) :
    out0_A_3 c i a2 h2 a3 h3 a4 h4 a5 h5 x0 x1 x2 = blockTerm x0 x1 x2 := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero zero3]
  simp only [View.readAt_eq_ld, h2.read_unread, h3.read_unread, h4.read_unread, View.ld_unit_zero (S := S1x512x64) zero3]
  rfl

/-- Eight rows of the query block from row o = 8c, read at (u, s, p): the block at feature s of chunk c. -/
theorem qrows_apply (x0 : Vec F S1x64x256 .f32) (o : ℕ)
    (h : ∀ a, (![0, o, 0] : Fin 3 → ℕ) a + (![1, 8, 256] : Fin 3 → ℕ) a ≤ S1x64x256.size a)
    (c : Fin 8) (ho : o = 8 * c.val) (u : Fin 1) (s : Fin 8) (p : Fin 256) :
    View.ld x0 (Rect.unit (s := S1x64x256) ![0, o, 0] ![1, 8, 256] h) (ix3 u s p)
      = x0 (ix3 (0 : Fin 1) (Cert.Attn.row c s) p) := by
  show x0 _ = x0 _
  congr 1
  funext a
  apply Fin.ext
  match a with
  | ⟨0, _⟩ => show 0 + 1 * u.val = 0; omega
  | ⟨1, _⟩ => show o + 1 * s.val = 8 * c.val + s.val; omega
  | ⟨2, _⟩ => show 0 + 1 * p.val = p.val; omega

/-- Eight rows of the key block from row o = 8c, read at (u, s, j): the block at feature s of chunk c. -/
theorem krows_apply (x1 : Vec F S1x64x512 .f32) (o : ℕ)
    (h : ∀ a, (![0, o, 0] : Fin 3 → ℕ) a + (![1, 8, 512] : Fin 3 → ℕ) a ≤ S1x64x512.size a)
    (c : Fin 8) (ho : o = 8 * c.val) (u : Fin 1) (s : Fin 8) (j : Fin 512) :
    View.ld x1 (Rect.unit (s := S1x64x512) ![0, o, 0] ![1, 8, 512] h) (ix3 u s j)
      = x1 (ix3 (0 : Fin 1) (Cert.Attn.row c s) j) := by
  show x1 _ = x1 _
  congr 1
  funext a
  apply Fin.ext
  match a with
  | ⟨0, _⟩ => show 0 + 1 * u.val = 0; omega
  | ⟨1, _⟩ => show o + 1 * s.val = 8 * c.val + s.val; omega
  | ⟨2, _⟩ => show 0 + 1 * j.val = j.val; omega

end Cert.KernelIdeal.Block

end
-- ==== Proof.LibKeep.lean ====
/-
  Four layout steps around a kept unit axis, each read at an index written by coordinates: a matrix given a trailing
  axis of extent one and then repeated along it, and a column passed through rank 3 and back. A cast keeps the
  row-major position; a broadcast reads coordinate zero on an axis of extent one.
-/
import Idealize.ShloMosaic.Lib.Pipeline.Value
import Idealize.ShloMosaic.Lib.ValueIdx

namespace Idealize.ShloMosaic.ValueIdx

variable {α : Type}

/-- An [a, b] matrix cast to [a, b, 1] reads, at (i, j, u), the operand at (i, j): both have row-major
    position i · b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A column [a, 1] cast to [a, 1, 1] reads, at (i, u, v), the column's entry of row i. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    rw [hu, hv, Nat.mul_one, Nat.add_zero, Nat.mul_one, Nat.add_zero])

/-- An [a, 1, 1] array cast to the column [a, 1] reads, at (i, u), the operand at (i, 0, 0). -/
theorem shapeCast_a11_a1_apply {a : ℕ} (x : (⟨3, ![a, 1, 1]⟩ : Shape).Idx → α)
    (h : (⟨3, ![a, 1, 1]⟩ : Shape).ShapeCasts ⟨2, ![a, 1]⟩) (i : Fin a) (u : Fin 1) :
    shapeCast ⟨2, ![a, 1]⟩ x h (ix2 i u) = x (ix3 i (0 : Fin 1) (0 : Fin 1)) :=
  shapeCast_apply x h _ _ (by
    have hu : u.val = 0 := by omega
    rw [Shape.rowMajor_val_three, Shape.rowMajor_val_two]
    show (i.val * 1 + 0) * 1 + 0 = i.val * 1 + u.val
    rw [hu, Nat.add_zero, Nat.mul_one])

end Idealize.ShloMosaic.ValueIdx
-- ==== Proof.LibLayout.lean ====
/-
  Three layout operations read at an index, at rank 3, with every index written by its coordinates. A value that
  depends on the first and last coordinates only is laid out along a middle axis of extent one and then repeated along
  it; a value that depends on the last two coordinates only is given a leading axis of extent one and then repeated
  along that. Reading the result at `(i, j, k)` reads the operand at `(i, k)`, respectively `(j, k)`: a cast keeps
  the row-major position, and a broadcast reads coordinate zero on an axis of extent one.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, c]` array cast to `[a, 1, c]` reads, at `(i, u, k)`, the operand at `(i, k)`: both have row-major
    position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.LibRowMax.lean ====
/-
  A maximum along one axis, read at an index of the result, on the extended reals.

  The vector unit's maximum along the last axis of a matrix [a, b], read at row p, is the fold of `max` from the
  accumulator's value over the row's entries (p, k), k : Fin b. The host's reduce by maximum over one axis is the same
  fold from its initial value's one element over that axis's coordinates. A fold of `max` is at least the value it
  starts from, so taking the maximum with that value once more changes nothing.
-/
import Idealize.ShloMosaic.PureOps.Ideal.Laws
import Idealize.ShloMosaic.Lib.ValueIdx

noncomputable section

namespace Cert.LibRowMax

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The vector unit's maximum along the rows of an [a, b] matrix, at row p: the fold of `max` from the accumulator's
    value over the row's entries. -/
theorem multiReduction_maximumf_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg ((Finset.univ : Finset (Fin b)).fold max (Ideal.ofBits φ acc)) (funext fun k => congrArg src (lift_row h p k)))

/-- The host's reduce by maximum over one axis, at a result index j: the fold of `max` from the initial value's one
    element over that axis's coordinates put back into j. -/
theorem hostReduce_maximumf_single {φ : FTy} {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single _ x init h' h hu j

/-- A fold of `max` that starts from b is at least b: the maximum of b and the fold is the fold. -/
theorem max_fold_max_self {ι : Type} (s : Finset ι) (b : EReal) (f : ι → EReal) :
    max b (s.fold max b f) = s.fold max b f :=
  max_eq_right ((Finset.le_fold_max b).2 (Or.inl le_rfl))

end Cert.LibRowMax

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.Rows.lean ====
/-
  The three stages of the kernel's block, each read at an entry, over the extended reals.

  A chunk: eight feature rows of the query block (laid out along a trailing unit axis and repeated over the 512 keys)
  minus the same eight rows of the key block (laid out along a middle unit axis and repeated over the 256 queries),
  the absolute value, and the sum over the eight rows: at (p, j) the L1 distance of query p and key j over those rows.
  The weights: the row maximum, the shifted exponentials, their row sum and the quotient: at (p, j) the softmax weight.
  The product: the weights times the value block, the latter with its leading unit axis dropped, the result with one
  added: at (p, q) the sum over the keys j of weight (p, j) times value (j, q).
-/
import Idealize.ShloMosaic.PureOps.Ideal.Laws
import Idealize.ShloMosaic.Lib.ValueIdx
import Idealize.ShloMosaic.Lib.ValueLayout
import Idealize.ShloMosaic.Lib.Pipeline.Value
import proofs.«114026_j6511170421658_2_alg».proof.Proof.LibKeep
import proofs.«114026_j6511170421658_2_alg».proof.Proof.LibLayout
import proofs.«114026_j6511170421658_2_alg».proof.Proof.LibColumn
import proofs.«114026_j6511170421658_2_alg».proof.Proof.LibRowMax
import proofs.«114026_j6511170421658_2_alg».proof.Proof.LibRowSum
import proofs.«114026_j6511170421658_2_alg».proof.Proof.LibMatmul
import proofs.«114026_j6511170421658_2_alg».proof.Proof.Spec

noncomputable section

namespace Cert.Attn

open Idealize.ShloMosaic Idealize.ShloMosaic.ValueIdx

/-! ## A chunk -/

/-- Over entry (p, j) of the [256, 512] result, the source index with coordinate s on the summed leading axis. -/
theorem lift_lead (hr : (⟨3, ![8, 256, 512]⟩ : Shape).Reduces [0] ⟨2, ![256, 512]⟩) (p : Fin 256) (j : Fin 512) (s : Fin 8) :
    hr.lift (ix2 p j) s = ix3 s p j := by
  funext c
  match c with
  | ⟨0, _⟩ => exact Fin.ext rfl
  | ⟨1, _⟩ => exact Fin.ext rfl
  | ⟨2, _⟩ => exact Fin.ext rfl

/-- The sum over eight feature rows of |query − key|, the operands already laid out along their unit axes. -/
theorem chunk_cast (A1 : FVec Ideal ⟨3, ![8, 256, 1]⟩ .f32) (B1 : FVec Ideal ⟨3, ![8, 1, 512]⟩ .f32)
    (h3 : (⟨3, ![8, 256, 1]⟩ : Shape).Broadcasts ⟨3, ![8, 256, 512]⟩)
    (g3 : (⟨3, ![8, 1, 512]⟩ : Shape).Broadcasts ⟨3, ![8, 256, 512]⟩)
    (hr : (⟨3, ![8, 256, 512]⟩ : Shape).Reduces [0] ⟨2, ![256, 512]⟩) (hφ : FKind.Formats .f32)
    (hacc : (0x00000000#32 : BitVec 32) = 0x00000000#32) (p : Fin 256) (j : Fin 512) :
    multiReduction .add [0] ⟨2, ![256, 512]⟩
        (absf (subf (broadcastTo ⟨3, ![8, 256, 512]⟩ A1 h3) (broadcastTo ⟨3, ![8, 256, 512]⟩ B1 g3)))
        0x00000000#32 hr hφ hacc (ix2 p j)
      = ∑ s : Fin 8, absDiff (A1 (ix3 s p (0 : Fin 1))) (B1 (ix3 s (0 : Fin 1) j)) := by
  refine (Ideal.multiReduction_add_single _ _ hr hφ hacc (ix2 p j)).trans ?_
  refine Finset.sum_congr rfl fun (s : Fin 8) _ => ?_
  rw [lift_lead hr p j s]
  show absDiff (broadcastTo ⟨3, ![8, 256, 512]⟩ A1 h3 (ix3 s p j)) (broadcastTo ⟨3, ![8, 256, 512]⟩ B1 g3 (ix3 s p j)) = _
  rw [broadcastTo_ab1_abc_apply, broadcastTo_a1c_abc_apply]

/-! ## The weights of a row -/

/-- The shifted exponentials: exp (u − the row's maximum), the maximum kept as a column and repeated along the row. -/
theorem shifted_apply (U : FVec Ideal ⟨2, ![256, 512]⟩ .f32)
    (hm : (⟨2, ![256, 512]⟩ : Shape).Reduces [1] ⟨1, ![256]⟩) (hc : (⟨1, ![256]⟩ : Shape).ShapeCasts ⟨2, ![256, 1]⟩)
    (hb : (⟨2, ![256, 1]⟩ : Shape).Broadcasts ⟨2, ![256, 512]⟩) (hφ : FKind.Formats .f32)
    (hmax : (0xFF800000#32 : BitVec 32) = 0xFF800000#32) (p : Fin 256) (j : Fin 512) :
    exp (subf U (broadcastTo ⟨2, ![256, 512]⟩
        (shapeCast ⟨2, ![256, 1]⟩ (multiReduction .maximumf [1] ⟨1, ![256]⟩ U 0xFF800000#32 hm hφ hmax) hc) hb)) (ix2 p j)
      = expShift (fun j' : Fin 512 => U (ix2 p j')) j := by
  show Ideal.exp (U (ix2 p j) - broadcastTo ⟨2, ![256, 512]⟩
    (shapeCast ⟨2, ![256, 1]⟩ (multiReduction .maximumf [1] ⟨1, ![256]⟩ U 0xFF800000#32 hm hφ hmax) hc) hb (ix2 p j)) = _
  rw [broadcastTo_a1_ab_apply, shapeCast_a_a1_apply, Cert.LibRowMax.multiReduction_maximumf_row U _ hm hφ hmax p]
  rfl

/-- The shifted exponentials of a score block, as the kernel's term. -/
abbrev shifted (U : FVec Ideal ⟨2, ![256, 512]⟩ .f32)
    (hm : (⟨2, ![256, 512]⟩ : Shape).Reduces [1] ⟨1, ![256]⟩) (hc : (⟨1, ![256]⟩ : Shape).ShapeCasts ⟨2, ![256, 1]⟩)
    (hb : (⟨2, ![256, 1]⟩ : Shape).Broadcasts ⟨2, ![256, 512]⟩) (hφ : FKind.Formats .f32)
    (hmax : (0xFF800000#32 : BitVec 32) = 0xFF800000#32) : FVec Ideal ⟨2, ![256, 512]⟩ .f32 :=
  exp (subf U (broadcastTo ⟨2, ![256, 512]⟩
    (shapeCast ⟨2, ![256, 1]⟩ (multiReduction .maximumf [1] ⟨1, ![256]⟩ U 0xFF800000#32 hm hφ hmax) hc) hb))

/-- The quotient of the shifted exponentials by their row sum, the sum kept as a column and repeated along the row. -/
theorem weights_apply (U : FVec Ideal ⟨2, ![256, 512]⟩ .f32)
    (hm : (⟨2, ![256, 512]⟩ : Shape).Reduces [1] ⟨1, ![256]⟩) (hc : (⟨1, ![256]⟩ : Shape).ShapeCasts ⟨2, ![256, 1]⟩)
    (hb : (⟨2, ![256, 1]⟩ : Shape).Broadcasts ⟨2, ![256, 512]⟩) (hφ : FKind.Formats .f32)
    (hmax : (0xFF800000#32 : BitVec 32) = 0xFF800000#32)
    (hadd : (0x00000000#32 : BitVec 32) = 0x00000000#32) (p : Fin 256) (j : Fin 512) :
    divf (shifted U hm hc hb hφ hmax) (broadcastTo ⟨2, ![256, 512]⟩
        (shapeCast ⟨2, ![256, 1]⟩
          (multiReduction .add [1] ⟨1, ![256]⟩ (shifted U hm hc hb hφ hmax) 0x00000000#32 hm hφ hadd) hc) hb) (ix2 p j)
      = weight (fun j' : Fin 512 => U (ix2 p j')) j := by
  show Ideal.div (shifted U hm hc hb hφ hmax (ix2 p j)) (broadcastTo ⟨2, ![256, 512]⟩
    (shapeCast ⟨2, ![256, 1]⟩
      (multiReduction .add [1] ⟨1, ![256]⟩ (shifted U hm hc hb hφ hmax) 0x00000000#32 hm hφ hadd) hc) hb (ix2 p j)) = _
  rw [broadcastTo_a1_ab_apply, shapeCast_a_a1_apply,
    Cert.LibRowSum.multiReduction_add_row (shifted U hm hc hb hφ hmax) _ hm hφ hadd p]
  unfold weight
  exact congrArg₂ Ideal.div (shifted_apply U hm hc hb hφ hmax p j)
    (Finset.sum_congr rfl fun j' _ => shifted_apply U hm hc hb hφ hmax p j')

/-! ## The product with the values -/

/-- The weights times the value block (both narrowed to bf16, which changes nothing on the extended reals), the value
    block's leading unit axis dropped before and one added after. -/
theorem product_apply (W : FVec Ideal ⟨2, ![256, 512]⟩ .f32) (X2 : FVec Ideal ⟨3, ![1, 512, 64]⟩ .f32)
    (d : DotDims ⟨2, ![256, 512]⟩ ⟨2, ![512, 64]⟩ ⟨2, ![256, 64]⟩) (prec : Option ContractPrecision)
    (hr : d.contr.rank = 1) (hs : d.contr.size ⟨0, by omega⟩ = 512)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (hbits : FTy.bits .bf16 < FTy.bits .f32)
    (hc1 : (⟨3, ![1, 512, 64]⟩ : Shape).ShapeCasts ⟨2, ![512, 64]⟩)
    (hc2 : (⟨2, ![256, 64]⟩ : Shape).ShapeCasts ⟨3, ![1, 256, 64]⟩) (u : Fin 1) (p : Fin 256) (q : Fin 64) :
    shapeCast ⟨3, ![1, 256, 64]⟩ (matmul d prec (truncf .bf16 W hbits)
        (truncf .bf16 (shapeCast ⟨2, ![512, 64]⟩ X2 hc1) hbits) (constant ⟨2, ![256, 64]⟩ .f32 0x00000000#32)) hc2 (ix3 u p q)
      = ∑ j : Fin 512, W (ix2 p j) * X2 (ix3 (0 : Fin 1) j q) := by
  rw [shapeCast_ab_1ab_apply]
  refine (Cert.LibMatmul.matmul_zero_ix2 d prec hr hs hl0 hl1 hr0 hr1 _ _ (ix2 p q)).trans ?_
  refine Finset.sum_congr rfl fun (j : Fin 512) _ => ?_
  show W (ix2 p j) * shapeCast ⟨2, ![512, 64]⟩ X2 hc1 (ix2 j q) = _
  rw [shapeCast_1ab_ab_apply]

end Cert.Attn

end
-- ==== Proof.BlockValue.lean ====
/-
  The output block read at an entry, over the extended reals.

  At (p, q) the block is the softmax-weighted sum, over the 512 keys j, of the value block's entry (j, q); the score
  of query p against key j is the sum of the eight chunks' L1 distances, each over eight feature rows of the two
  transposed blocks, added in order onto zero and halved.
-/
import proofs.«114026_j6511170421658_2_alg».proof.Proof.Block
import proofs.«114026_j6511170421658_2_alg».proof.Proof.Rows

noncomputable section

open Idealize.ShloMosaic Idealize.ShloMosaic.TcCoe Idealize.SL.Sem

namespace Cert.KernelIdeal.Block

open Cert.KernelIdeal Cert.KernelIdeal.Gen Idealize.ShloMosaic.ValueIdx Cert.Attn

/-- The L1 distance of query p and key j over the eight feature rows two loads hold. -/
def dist (A : Vec Ideal S1x8x256 .f32) (B : Vec Ideal S1x8x512 .f32) (p : Fin 256) (j : Fin 512) : EReal :=
  ∑ s : Fin 8, absDiff (A (ix3 (0 : Fin 1) s p)) (B (ix3 (0 : Fin 1) s j))

/-- Chunks 0 and 1 onto zero. -/
theorem pay2_apply (v4 : Vec Ideal S1x8x256 .f32) (v7 : Vec Ideal S1x8x512 .f32) (v20 : Vec Ideal S1x8x256 .f32)
    (v23 : Vec Ideal S1x8x512 .f32) (p : Fin 256) (j : Fin 512) :
    k0_pay2 (F := Ideal) v4 v7 v20 v23 (ix2 p j)
      = (Ideal.ofBits .f32 0x00000000#32 + dist v4 v7 p j) + dist v20 v23 p j := by
  unfold k0_pay2 dist
  dsimp only
  simp only [addf_apply, broadcast_apply]
  rw [chunk_cast, chunk_cast]
  simp only [shapeCast_ab_ab1_apply, shapeCast_1ab_ab_apply, shapeCast_ac_a1c_apply]
  rfl

/-- Chunks 2, 3 and 4 onto what came before (chunk 2's query rows arrive already as a matrix). -/
theorem pay4_apply (v32 : FVec Ideal S256x512 .f32) (v37 : FVec Ideal S8x256 .f32) (v39 : Vec Ideal S1x8x512 .f32)
    (v52 : Vec Ideal S1x8x256 .f32) (v55 : Vec Ideal S1x8x512 .f32) (v68 : Vec Ideal S1x8x256 .f32)
    (v71 : Vec Ideal S1x8x512 .f32) (p : Fin 256) (j : Fin 512) :
    k0_pay4 (F := Ideal) v32 v37 v39 v52 v55 v68 v71 (ix2 p j)
      = ((v32 (ix2 p j) + ∑ s : Fin 8, absDiff (v37 (ix2 s p)) (v39 (ix3 (0 : Fin 1) s j))) + dist v52 v55 p j)
        + dist v68 v71 p j := by
  unfold k0_pay4 dist
  dsimp only
  simp only [addf_apply]
  rw [chunk_cast, chunk_cast, chunk_cast]
  simp only [shapeCast_ab_ab1_apply, shapeCast_1ab_ab_apply, shapeCast_ac_a1c_apply]

/-- Chunks 5 and 6 onto what came before. -/
theorem pay5_apply (v80 : FVec Ideal S256x512 .f32) (v84 : Vec Ideal S1x8x256 .f32) (v87 : Vec Ideal S1x8x512 .f32)
    (v100 : Vec Ideal S1x8x256 .f32) (v103 : Vec Ideal S1x8x512 .f32) (p : Fin 256) (j : Fin 512) :
    k0_pay5 (F := Ideal) v80 v84 v87 v100 v103 (ix2 p j) = (v80 (ix2 p j) + dist v84 v87 p j) + dist v100 v103 p j := by
  unfold k0_pay5 dist
  dsimp only
  simp only [addf_apply]
  rw [chunk_cast, chunk_cast]
  simp only [shapeCast_ab_ab1_apply, shapeCast_1ab_ab_apply, shapeCast_ac_a1c_apply]

/-! The product's dimension numbers: the weights' columns against the values' rows. -/

theorem dot_l0 (j : S256x64.Idx) (q : dot_S256x512_S512x64_S256x64_1_0_0_1_n_n.contr.Idx) : (dot_S256x512_S512x64_S256x64_1_0_0_1_n_n.lhsIdx j q 0).val = (j 0).val := by
  unfold DotDims.lhsIdx
  rw [dif_neg (show ¬(0 : Fin S256x512.rank) ∈ dot_S256x512_S512x64_S256x64_1_0_0_1_n_n.lhsBatch by decide),
    dif_pos (show (0 : Fin S256x512.rank) ∈ dot_S256x512_S512x64_S256x64_1_0_0_1_n_n.lhsNonContracting by decide)]
  rfl
theorem dot_l1 (j : S256x64.Idx) (q : dot_S256x512_S512x64_S256x64_1_0_0_1_n_n.contr.Idx) : (dot_S256x512_S512x64_S256x64_1_0_0_1_n_n.lhsIdx j q 1).val = (q ⟨0, by decide⟩).val :=
  dot_S256x512_S512x64_S256x64_1_0_0_1_n_n.lhsIdx_val_of_single rfl j q
theorem dot_r0 (j : S256x64.Idx) (q : dot_S256x512_S512x64_S256x64_1_0_0_1_n_n.contr.Idx) : (dot_S256x512_S512x64_S256x64_1_0_0_1_n_n.rhsIdx j q 0).val = (q ⟨0, by decide⟩).val :=
  dot_S256x512_S512x64_S256x64_1_0_0_1_n_n.rhsIdx_val_of_single rfl j q
theorem dot_r1 (j : S256x64.Idx) (q : dot_S256x512_S512x64_S256x64_1_0_0_1_n_n.contr.Idx) : (dot_S256x512_S512x64_S256x64_1_0_0_1_n_n.rhsIdx j q 1).val = (j 1).val := by
  unfold DotDims.rhsIdx
  rw [dif_neg (show ¬(1 : Fin S512x64.rank) ∈ dot_S256x512_S512x64_S256x64_1_0_0_1_n_n.rhsBatch by decide),
    dif_pos (show (1 : Fin S512x64.rank) ∈ dot_S256x512_S512x64_S256x64_1_0_0_1_n_n.rhsNonContracting by decide)]
  rfl

/-- The last chunk, the halving, the weights and the product. -/
theorem pay1_apply (v112 : FVec Ideal S256x512 .f32) (v120 : FVec Ideal S8x512 .f32) (v121 : FVec Ideal S8x256x1 .f32)
    (v141 : Vec Ideal S1x512x64 .f32) (u : Fin 1) (p : Fin 256) (q : Fin 64) :
    k0_pay1 (F := Ideal) v112 v120 v121 v141 (ix3 u p q)
      = attend (fun j : Fin 512 => (v112 (ix2 p j) + ∑ s : Fin 8, absDiff (v121 (ix3 s p (0 : Fin 1))) (v120 (ix2 s j)))
            * Ideal.ofBits .f32 0x3F000000#32)
          (fun j : Fin 512 => v141 (ix3 (0 : Fin 1) j q)) := by
  unfold k0_pay1
  dsimp only
  refine (product_apply _ v141 dot_S256x512_S512x64_S256x64_1_0_0_1_n_n none rfl rfl dot_l0 dot_l1 dot_r0 dot_r1 _ _ _ u p q).trans ?_
  unfold attend
  refine Finset.sum_congr rfl fun (j : Fin 512) _ => congrArg (· * v141 (ix3 (0 : Fin 1) j q)) ?_
  refine (weights_apply _ _ _ _ _ _ _ p j).trans ?_
  refine congrArg (fun w => weight w j) (funext fun (j' : Fin 512) => ?_)
  simp only [mulf_apply, addf_apply, broadcast_apply]
  rw [chunk_cast]
  simp only [shapeCast_ac_a1c_apply]
  rfl

/-- The block at (u, p, q): the weighted sum of the value block's column q by the softmax of query p's scores, the
    score being the eight chunks onto zero, halved. -/
theorem blockTerm_apply (x0 : Vec Ideal S1x64x256 .f32) (x1 : Vec Ideal S1x64x512 .f32) (x2 : Vec Ideal S1x512x64 .f32)
    (u : Fin 1) (p : Fin 256) (q : Fin 64) :
    blockTerm (F := Ideal) x0 x1 x2 (ix3 u p q)
      = attend (fun j : Fin 512 => scoreK (fun dd : Fin 64 => x0 (ix3 (0 : Fin 1) dd p)) (fun dd : Fin 64 => x1 (ix3 (0 : Fin 1) dd j)))
          (fun j : Fin 512 => x2 (ix3 (0 : Fin 1) j q)) := by
  unfold blockTerm
  rw [pay1_apply]
  refine congrArg (fun w => attend w _) (funext fun (j : Fin 512) => ?_)
  rw [pay5_apply, pay4_apply, pay2_apply]
  unfold scoreK chunk dist k0_pay3 k0_pay6 k0_pay7
  dsimp only
  simp only [shapeCast_ab_ab1_apply, shapeCast_1ab_ab_apply,
    qrows_apply x0 0 _ 0 rfl, qrows_apply x0 8 _ 1 rfl, qrows_apply x0 16 _ 2 rfl, qrows_apply x0 24 _ 3 rfl, qrows_apply x0 32 _ 4 rfl, qrows_apply x0 40 _ 5 rfl, qrows_apply x0 48 _ 6 rfl, qrows_apply x0 56 _ 7 rfl,
    krows_apply x1 0 _ 0 rfl, krows_apply x1 8 _ 1 rfl, krows_apply x1 16 _ 2 rfl, krows_apply x1 24 _ 3 rfl, krows_apply x1 32 _ 4 rfl, krows_apply x1 40 _ 5 rfl, krows_apply x1 48 _ 6 rfl, krows_apply x1 56 _ 7 rfl]

end Cert.KernelIdeal.Block

end
-- ==== Proof.Final.lean ====
/-
  From blocks to the array: after the run the kernel's result array is the specification's, with the score arranged
  the kernel's way.

  Grid point t = (b, h) reads rows [256h, 256h + 256) of the transposed queries of batch b, all of the transposed
  keys and all of the values of batch b, and writes back rows [256h, 256h + 256) of batch b of the result. The
  arrays the region finds transposed were written by the two host transposes before it, so entry (b, d, i) of a
  transposed array is entry (b, i, d) of the argument. The sixteen blocks cover the result array.
-/
import proofs.«114026_j6511170421658_2_alg».proof.Proof.Gen.KernelIdeal.Value
import proofs.«114026_j6511170421658_2_alg».proof.Proof.BlockValue
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Block Idealize.ShloMosaic.ValueIdx Cert.Attn

variable (m : (ℓ : Loc nD τ sig) → Buf (Elt Ideal) ℓ) (ρ : Dev nD → PrngReg)

/-! ## The index maps over the grid -/

/-- Each input window's block index in terms of the output window's, and the output's ranges. -/
theorem idx_facts : ∀ t : Fin cfg0.N,
    win0_0.index t (0 : Fin 3) = win0_3.index t (0 : Fin 3) ∧ win0_0.index t (1 : Fin 3) = 0
    ∧ win0_0.index t (2 : Fin 3) = win0_3.index t (1 : Fin 3)
    ∧ win0_1.index t (0 : Fin 3) = win0_3.index t (0 : Fin 3) ∧ win0_1.index t (1 : Fin 3) = 0
    ∧ win0_1.index t (2 : Fin 3) = 0
    ∧ win0_2.index t (0 : Fin 3) = win0_3.index t (0 : Fin 3) ∧ win0_2.index t (1 : Fin 3) = 0
    ∧ win0_2.index t (2 : Fin 3) = 0
    ∧ win0_3.index t (0 : Fin 3) ≤ 7 ∧ win0_3.index t (1 : Fin 3) ≤ 1 ∧ win0_3.index t (2 : Fin 3) = 0 :=
  (by decide +kernel : ∀ t : Fin grid0.N, _)

/-- Every (batch, row half) is some point's output block. -/
theorem idx_onto : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-! ## The transposed arrays the region finds -/

/-- The transposed queries: the first host operation's result, of the argument v. -/
theorem V_queries (c : Dev nD) : (V m c main_v0 : S8x64x512.Idx → Elt Ideal .f32)
    = transpose S8x64x512 [0, 2, 1] (m ((c : Thread nD τ).loc main_arg1)) transposes_S8x512x64_S8x64x512_0_2_1 := by
  dsimp only [V, hostOps0]; after_results

/-- The transposed keys: the second host operation's result, of the argument k. -/
theorem V_keys (c : Dev nD) : (V m c main_v1 : S8x64x512.Idx → Elt Ideal .f32)
    = transpose S8x64x512 [0, 2, 1] (m ((c : Thread nD τ).loc main_arg0)) transposes_S8x512x64_S8x64x512_0_2_1 := by
  dsimp only [V, hostOps0]; after_results

/-! ## One point's block -/

/-- Row p of half h of the 512 rows. -/
theorem row_lt (h : Fin 2) (p : Fin 256) : 256 * h.val + p.val < 512 := by
  have := h.isLt; have := p.isLt; omega

/-- A block whose inputs are the blocks of batch b (queries from row 256h) is the specification on its rows. -/
theorem block_eq (k v : Arr.Idx → EReal) (x0 : Vec Ideal S1x64x256 .f32) (x1 : Vec Ideal S1x64x512 .f32)
    (x2 : Vec Ideal S1x512x64 .f32) (b : Fin 8) (h : Fin 2)
    (h0 : ∀ (dd : Fin 64) (p : Fin 256),
      x0 (ix3 (0 : Fin 1) dd p) = v (ix3 b ⟨256 * h.val + p.val, row_lt h p⟩ dd))
    (h1 : ∀ (dd : Fin 64) (j : Fin 512), x1 (ix3 (0 : Fin 1) dd j) = k (ix3 b j dd))
    (h2 : ∀ (j : Fin 512) (q : Fin 64), x2 (ix3 (0 : Fin 1) j q) = v (ix3 b j q))
    (y : S1x256x64.Idx) (i : Arr.Idx) (hi0 : (i 0).val = b.val) (hi1 : (i 1).val = 256 * h.val + (y 1).val)
    (hi2 : (i 2).val = (y 2).val) :
    blockTerm (F := Ideal) x0 x1 x2 y = attnArr scoreK k v i := by
  obtain ⟨u, p, q, rfl⟩ : ∃ (u : Fin 1) (p : Fin 256) (q : Fin 64), y = ix3 u p q := ⟨y 0, y 1, y 2, eq_ix3 y⟩
  have hi : i = ix3 b ⟨256 * h.val + p.val, row_lt h p⟩ q := by
    funext a
    apply Fin.ext
    match a with
    | ⟨0, _⟩ => exact hi0
    | ⟨1, _⟩ => exact hi1
    | ⟨2, _⟩ => exact hi2
  subst hi
  rw [blockTerm_apply, attnArr_ix3]
  unfold attnAt
  simp only [h0, h1, h2]

/-- What point t writes back is block t of the specification of the two arguments. -/
theorem flushed_eq (c : Dev nD) (t : Fin cfg0.N) :
    (dats m 0 c).flushed 3 t = ((cfg0.win 3).blk t).view.read (Elt Ideal)
      (attnArr scoreK (m ((c : Thread nD τ).loc main_arg0)) (m ((c : Thread nD τ).loc main_arg1))) := by
  rw [Cert.KernelIdeal.Value.flushed3_A m c t, out_A]
  obtain ⟨e00, e01, e02, e10, e11, e12, e20, e21, e22, b7, b1, e32⟩ := idx_facts t
  funext y
  show blockTerm (F := Ideal) (iblk m c 0 t) (iblk m c 1 t) (iblk m c 2 t) y
    = attnArr scoreK (m ((c : Thread nD τ).loc main_arg0)) (m ((c : Thread nD τ).loc main_arg1)) (((cfg0.win 3).blk t).view.emb y)
  refine block_eq _ _ (iblk m c 0 t) (iblk m c 1 t) (iblk m c 2 t) ⟨win0_3.index t (0 : Fin 3), by omega⟩
    ⟨win0_3.index t (1 : Fin 3), by omega⟩ ?_ ?_ ?_ y _ ?_ ?_ ?_
  · intro dd p
    have he : ((cfg0.win 0).blk t).view.emb (ix3 (0 : Fin 1) dd p)
        = ix3 (⟨win0_3.index t (0 : Fin 3), by omega⟩ : Fin 8) dd
            (⟨256 * win0_3.index t (1 : Fin 3) + p.val, by have := p.isLt; omega⟩ : Fin 512) := by
      funext a
      apply Fin.ext
      match a with
      | ⟨0, _⟩ => show win0_0.index t (0 : Fin 3) * 1 + 1 * 0 = win0_3.index t (0 : Fin 3); omega
      | ⟨1, _⟩ => show win0_0.index t (1 : Fin 3) * 64 + 1 * dd.val = dd.val; omega
      | ⟨2, _⟩ => show win0_0.index t (2 : Fin 3) * 256 + 1 * p.val = 256 * win0_3.index t (1 : Fin 3) + p.val; omega
    show V m c main_v0 (((cfg0.win 0).blk t).view.emb (ix3 (0 : Fin 1) dd p)) = _
    rw [he]
    exact (congrFun (V_queries m c) _).trans (transpose_ix3_021_apply _ _ _ _ _)
  · intro dd j
    have he : ((cfg0.win 1).blk t).view.emb (ix3 (0 : Fin 1) dd j)
        = ix3 (⟨win0_3.index t (0 : Fin 3), by omega⟩ : Fin 8) dd j := by
      funext a
      apply Fin.ext
      match a with
      | ⟨0, _⟩ => show win0_1.index t (0 : Fin 3) * 1 + 1 * 0 = win0_3.index t (0 : Fin 3); omega
      | ⟨1, _⟩ => show win0_1.index t (1 : Fin 3) * 64 + 1 * dd.val = dd.val; omega
      | ⟨2, _⟩ => show win0_1.index t (2 : Fin 3) * 512 + 1 * j.val = j.val; omega
    show V m c main_v1 (((cfg0.win 1).blk t).view.emb (ix3 (0 : Fin 1) dd j)) = _
    rw [he]
    exact (congrFun (V_keys m c) _).trans (transpose_ix3_021_apply _ _ _ _ _)
  · intro j q
    have he : ((cfg0.win 2).blk t).view.emb (ix3 (0 : Fin 1) j q)
        = ix3 (⟨win0_3.index t (0 : Fin 3), by omega⟩ : Fin 8) j q := by
      funext a
      apply Fin.ext
      match a with
      | ⟨0, _⟩ => show win0_2.index t (0 : Fin 3) * 1 + 1 * 0 = win0_3.index t (0 : Fin 3); omega
      | ⟨1, _⟩ => show win0_2.index t (1 : Fin 3) * 512 + 1 * j.val = j.val; omega
      | ⟨2, _⟩ => show win0_2.index t (2 : Fin 3) * 64 + 1 * q.val = q.val; omega
    show V m c main_arg1 (((cfg0.win 2).blk t).view.emb (ix3 (0 : Fin 1) j q)) = _
    rw [he, V_main_arg1 m c]
  · show win0_3.index t (0 : Fin 3) * 1 + 1 * (y 0).val = win0_3.index t (0 : Fin 3)
    have hy : (y 0).val < 1 := (y 0).isLt
    omega
  · show win0_3.index t (1 : Fin 3) * 256 + 1 * (y 1).val = 256 * win0_3.index t (1 : Fin 3) + (y 1).val
    omega
  · show win0_3.index t (2 : Fin 3) * 64 + 1 * (y 2).val = (y 2).val
    omega

/-! ## The cover and the array -/

/-- An index of the result array is in point t's block iff each coordinate is in the block's range on its axis. -/
theorem mem_blk (t : Fin cfg0.N) (i : S8x512x64.Idx) :
    i ∈ ((cfg0.win 3).blk t).view.set ↔ ∀ a : Fin 3, win0_3.index t a * S1x256x64.size a ≤ (i a).val
      ∧ (i a).val < win0_3.index t a * S1x256x64.size a + S1x256x64.size a := by
  show i ∈ ((View.whole main_v2).slice (win0_3.rect t)).set ↔ _
  rw [View.set_slice_whole, Rect.mem_set_unit]
  exact Iff.rfl

/-- Every index of the result array is in some point's block: batch (i 0), row half (i 1) / 256. -/
theorem cover (i : S8x512x64.Idx) : ∃ t : Fin cfg0.N, (cfg0.win 3).flush t = true ∧ i ∈ ((cfg0.win 3).blk t).view.set := by
  have hi0 : (i 0).val < 8 := (i 0).isLt
  have hi1 : (i 1).val < 512 := (i 1).isLt
  have hi2 : (i 2).val < 64 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- The result array after the run. -/
theorem final (c : Dev nD) : (dats m 0 c).arrAt 3 cfg0.N
    = attnArr scoreK (m ((c : Thread nD τ).loc main_arg0)) (m ((c : Thread nD τ).loc main_arg1)) :=
  (dats m 0 c).arrAt_eq_of_cover 3 _ (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v2)
        = attnArr scoreK (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Final

end
-- ==== Proof.RefValue.lean ====
/-
  The reference, stage by stage at an entry: its result is the softmax-weighted sum of the specification with the
  score arranged the reference's way (each difference k − v halved, then the absolute value, the 64 summed onto zero).

  Its row maximum is a fold of max from −∞ followed by one more maximum with −∞, which changes nothing; its row sum
  starts from zero, which adds nothing.
-/
import proofs.«114026_j6511170421658_2_alg».proof.Proof.Gen.ReferenceIdeal.Read
import proofs.«114026_j6511170421658_2_alg».proof.Proof.LibRowMax
import proofs.«114026_j6511170421658_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn

abbrev A3 : Type := (⟨S8x512x64, .f32⟩ : BufTy).Contents (Elt Ideal)

/-- The score of query row r against key row j, as the reference arranges it. -/
theorem score_apply (k v : A3) (b : Fin 8) (r j : Fin 512) :
    val_main_v8 (F := Ideal) k v (ix3 b r j) = scoreR (fun dd : Fin 64 => v (ix3 b r dd)) (fun dd : Fin 64 => k (ix3 b j dd)) := by
  rw [val_main_v8_apply]
  unfold scoreR
  refine congrArg₂ (· + ·) rfl (Finset.sum_congr rfl fun (dd : Fin 64) _ => ?_)
  rw [val_main_v7_apply, val_main_v6_apply, val_main_v4_apply, val_main_v5_apply, val_main_v2_apply, val_main_v3_apply,
    val_main_v0_apply, val_main_v1_apply]
  have i0 : idx_main_v0 (idx_main_v2 (idx_main_v8 (ix3 b r j) dd)) = ix3 b j dd :=
    funext fun a => Fin.ext (by match a with | ⟨0, _⟩ => rfl | ⟨1, _⟩ => rfl | ⟨2, _⟩ => rfl)
  have i1 : idx_main_v1 (idx_main_v3 (idx_main_v8 (ix3 b r j) dd)) = ix3 b r dd :=
    funext fun a => Fin.ext (by match a with | ⟨0, _⟩ => rfl | ⟨1, _⟩ => rfl | ⟨2, _⟩ => rfl)
  rw [i0, i1]
  rfl

/-- Over row (b, r) of the scores, the source index with coordinate j on the reduced last axis. -/
theorem lift_last (h : S8x512x512.Reduces [2] S8x512) (b : Fin 8) (r : Fin 512) (j : Fin 512) :
    h.lift (ix2 b r) j = ix3 b r j := by
  funext c
  match c with
  | ⟨0, _⟩ => exact Fin.ext rfl
  | ⟨1, _⟩ => exact Fin.ext rfl
  | ⟨2, _⟩ => exact Fin.ext rfl

/-- The maximum the reference subtracts: the row's maximum folded from −∞ (the extra maximum with −∞ absorbed). -/
theorem max_apply (k v : A3) (b : Fin 8) (r : Fin 512) :
    val_main_v11 (F := Ideal) k v (ix2 b r) = rowMax (fun j : Fin 512 => val_main_v8 (F := Ideal) k v (ix3 b r j)) := by
  rw [val_main_v11_apply, val_main_v10_apply]
  unfold val_main_v9
  have hR : S8x512x512.Reduces [2] S8x512 := by decide
  show max (Ideal.ofBits .f32 0xFF800000#32) (Host.reduce (FloatOps.maximumf (F := Ideal) (φ := .f32)) (val_main_v8 (F := Ideal) k v)
    (val_main_cst_1 (F := Ideal)) reducesTo_S8x512x512_S8x512_d2 h_S_ (ix2 b r)) = _
  rw [Cert.LibRowMax.hostReduce_maximumf_single (val_main_v8 (F := Ideal) k v) (val_main_cst_1 (F := Ideal))
    reducesTo_S8x512x512_S8x512_d2 hR h_S_ (ix2 b r)]
  refine (Cert.LibRowMax.max_fold_max_self _ _ _).trans ?_
  unfold rowMax
  exact congrArg ((Finset.univ : Finset (Fin 512)).fold max (Ideal.ofBits .f32 0xFF800000#32))
    (funext fun j => congrArg (val_main_v8 (F := Ideal) k v) (lift_last hR b r j))

/-- The shifted exponentials. -/
theorem exp_apply (k v : A3) (b : Fin 8) (r j : Fin 512) :
    val_main_v15 (F := Ideal) k v (ix3 b r j) = expShift (fun j' : Fin 512 => val_main_v8 (F := Ideal) k v (ix3 b r j')) j := by
  rw [val_main_v15_apply, val_main_v14_apply, val_main_v13_apply, val_main_v12_apply]
  have i0 : idx_main_v12 (idx_main_v13 (ix3 b r j)) = ix2 b r :=
    funext fun a => Fin.ext (by match a with | ⟨0, _⟩ => rfl | ⟨1, _⟩ => rfl)
  rw [i0, max_apply]
  rfl

/-- The weights. -/
theorem weight_apply (k v : A3) (b : Fin 8) (r j : Fin 512) :
    val_main_v19 (F := Ideal) k v (ix3 b r j) = weight (fun j' : Fin 512 => val_main_v8 (F := Ideal) k v (ix3 b r j')) j := by
  rw [val_main_v19_apply, val_main_v18_apply, val_main_v17_apply]
  have i0 : idx_main_v17 (idx_main_v18 (ix3 b r j)) = ix2 b r :=
    funext fun a => Fin.ext (by match a with | ⟨0, _⟩ => rfl | ⟨1, _⟩ => rfl)
  rw [i0, val_main_v16_apply]
  show Ideal.div (val_main_v15 (F := Ideal) k v (ix3 b r j))
    (Ideal.ofBits .f32 0x00000000#32 + ∑ k' : Fin 512, val_main_v15 (F := Ideal) k v (idx_main_v16 (ix2 b r) k')) = _
  rw [Ideal.ofBits_zero_f32, zero_add, exp_apply]
  unfold weight
  refine congrArg (Ideal.div _) (Finset.sum_congr rfl fun (k' : Fin 512) _ => ?_)
  have i1 : idx_main_v16 (ix2 b r) k' = ix3 b r k' :=
    funext fun a => Fin.ext (by match a with | ⟨0, _⟩ => rfl | ⟨1, _⟩ => rfl | ⟨2, _⟩ => rfl)
  rw [i1, exp_apply]

/-- The reference's result array is the specification's, with the reference's arrangement of the score. -/
theorem result_eq (k v : A3) : val_main_v20 (F := Ideal) k v = attnArr scoreR k v := by
  funext i
  obtain ⟨b, r, d, rfl⟩ : ∃ (b : Fin 8) (r : Fin 512) (d : Fin 64), i = ix3 b r d := ⟨i 0, i 1, i 2, eq_ix3 i⟩
  rw [val_main_v20_apply, attnArr_ix3]
  unfold attnAt attend
  refine Finset.sum_congr rfl fun (j : Fin 512) _ => ?_
  have e1 : lidx_main_v20 (ix3 b r d) j = ix3 b r j :=
    funext fun a => Fin.ext (by match a with | ⟨0, _⟩ => rfl | ⟨1, _⟩ => rfl | ⟨2, _⟩ => rfl)
  have e2 : ridx_main_v20 (ix3 b r d) j = ix3 b j d :=
    funext fun a => Fin.ext (by match a with | ⟨0, _⟩ => rfl | ⟨1, _⟩ => rfl | ⟨2, _⟩ => rfl)
  rw [e1, e2, weight_apply]
  refine congrArg (fun u => weight u j * v (ix3 b j d)) (funext fun (j' : Fin 512) => ?_)
  exact score_apply k v b r j'

end Cert.ReferenceIdeal.RefValue

end
-- ==== Proof.LibFinite.lean ====
/-
  "Every entry is finite", read back from a printed precondition.

  A precondition `jnp.all (|x| < +∞)` prints as an all-reduction by `and`, from the constant 1, of the one-bit array of
  the comparisons `|x i| < +∞`, the bound broadcast from a scalar.  If the reduction is 1 then every comparison is 1; and
  an extended real whose absolute value is below +∞ is neither infinity, so it is a real.
-/
import Idealize.ShloMosaic.Lib.ReduceAll
import Idealize.ShloMosaic.Lib.ValueIdx
import Idealize.ShloMosaic.PureOps.Ideal.Laws

noncomputable section

namespace Cert.LibFinite

open Idealize.ShloMosaic

/-- The scalar shape has one index. -/
instance : Subsingleton (⟨0, ![]⟩ : Shape).Idx := ⟨fun a b => funext fun d => d.elim0⟩

/-- An extended real whose absolute value is below +∞ is a real. -/
theorem real_of_abs_lt (x : EReal) (h : Ideal.cmp .olt (max x (-x)) (Ideal.ofBits .f32 0x7F800000#32) = 1#1) :
    ∃ r : ℝ, x = r := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One all-reduction of the comparisons "|x i| < +∞" being 1 makes every entry of `x` a real. -/
theorem all_real_of_reduce {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : ∃ r : ℝ, x i = r :=
  real_of_abs_lt (x i) (Host.reduce_andi_all _ _ hr hu ValueIdx.ix0 e i)

end Cert.LibFinite

end
-- ==== Proof.Finite.lean ====
/-
  The precondition read back: when the printed predicate "every input is finite" is all ones, every entry of k and of
  v is a real number. The predicate is the conjunction of three all-reductions, one per input; a conjunction of bits
  that is 1 has each bit 1, and each all-reduction that is 1 makes every entry of its input a real.
-/
import proofs.«114026_j6511170421658_2_alg».proof.Proof.Gen.Pre_finite_inputs
import proofs.«114026_j6511170421658_2_alg».proof.Proof.LibFinite
import Idealize.ShloMosaic.Lib.Affine

noncomputable section

namespace Cert.Pre_finite_inputs.Finite

open Cert.Pre_finite_inputs Idealize.ShloMosaic

variable [Cert.Pre_finite_inputs.Facts]

theorem reals_of_pre (k v q : FVec Ideal S8x512x64 .f32) (h : fn (F := Ideal) k v q = fun _ => 1#1) :
    (∀ i, ∃ r : ℝ, k i = r) ∧ (∀ i, ∃ r : ℝ, v i = r) := by
  have h0 := congrFun h ValueIdx.ix0
  dsimp only [fn] at h0
  obtain ⟨h01, -⟩ := IntOp.andi_eq_one.1 h0
  obtain ⟨hk, hv⟩ := IntOp.andi_eq_one.1 h01
  exact ⟨fun i => Cert.LibFinite.all_real_of_reduce k _ _ _ hk i, fun i => Cert.LibFinite.all_real_of_reduce v _ _ _ hv i⟩

end Cert.Pre_finite_inputs.Finite

end
-- ==== Proof.lean ====
/-
  The kernel computes, for each batch b and query row i, a softmax-weighted sum of the rows of v: the weight of row j
  is the softmax over j of half the L1 distance between row i of v and row j of k. The reference computes the same
  with the halving moved inside the absolute value. Over the extended reals:

  - each program runs and leaves its arguments unchanged (the frames);
  - the idealized kernel is the kernel's own text read over the extended reals: no operation was rewritten, so there is
    nothing to preserve;
  - from memories that agree on the arguments both idealized programs end with the same result array: each ends at the
    specification's array with its own arrangement of the score, and the two arrangements agree on
    real entries, which the precondition provides: |(y − x) / 2| = |x − y| / 2, and halving distributes over a finite
    sum of reals. The softmax and the product with v are the same term on both sides once the scores agree.
-/
import proofs.«114026_j6511170421658_2_alg».proof.Defs
import proofs.«114026_j6511170421658_2_alg».proof.Proof.Gen.Kernel
import proofs.«114026_j6511170421658_2_alg».proof.Proof.Gen.Kernel.Skeleton
import proofs.«114026_j6511170421658_2_alg».proof.Proof.Gen.Kernel.Launch
import proofs.«114026_j6511170421658_2_alg».proof.Proof.Gen.Kernel.Points
import proofs.«114026_j6511170421658_2_alg».proof.Proof.Gen.Kernel.Frame
import proofs.«114026_j6511170421658_2_alg».proof.Proof.Gen.KernelIdeal
import proofs.«114026_j6511170421658_2_alg».proof.Proof.Gen.KernelIdeal.Skeleton
import proofs.«114026_j6511170421658_2_alg».proof.Proof.Gen.KernelIdeal.Launch
import proofs.«114026_j6511170421658_2_alg».proof.Proof.Gen.KernelIdeal.Points
import proofs.«114026_j6511170421658_2_alg».proof.Proof.Gen.KernelIdeal.Frame
import proofs.«114026_j6511170421658_2_alg».proof.Proof.Gen.KernelIdeal.Value
import proofs.«114026_j6511170421658_2_alg».proof.Proof.Gen.ReferenceIdeal
import proofs.«114026_j6511170421658_2_alg».proof.Proof.Gen.ReferenceIdeal.Run
import proofs.«114026_j6511170421658_2_alg».proof.Proof.Gen.ReferenceIdeal.Read
import proofs.«114026_j6511170421658_2_alg».proof.Proof.Gen.Pre_finite_inputs
import proofs.«114026_j6511170421658_2_alg».proof.Proof.Spec
import proofs.«114026_j6511170421658_2_alg».proof.Proof.Final
import proofs.«114026_j6511170421658_2_alg».proof.Proof.RefValue
import proofs.«114026_j6511170421658_2_alg».proof.Proof.Finite
import Idealize.ShloMosaic.Adequacy
import Idealize.ShloMosaic.Init

noncomputable section

namespace Cert.Proof

open Idealize.ShloMosaic Idealize.SL.Sem Cert.Attn

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel ends at the specification with the chunked score, the reference at the specification with
    the halved-inside score, of arguments that agree and are real: one array. -/
theorem algebraic : Cert.algebraic_KernelIdeal_ReferenceIdeal := by
  intro m ρ m' ρ' hpre hagree
  refine ⟨fun c => attnArr scoreK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2.1]
  obtain ⟨hk, hv⟩ := Cert.Pre_finite_inputs.Finite.reals_of_pre _ _ _ (hpre c)
  exact (attnArr_eq _ _ hk hv).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
